-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S64x1024x256 : Shape := ⟨3, ![64, 1024, 256]⟩
abbrev S1024x64 : Shape := ⟨2, ![1024, 64]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S64x1024x256 : S_.BroadcastsInDim S64x1024x256 (![] : Fin 0 → Fin S64x1024x256.rank)
  reducesTo_S64x1024x256_S_d0_1_2 : S64x1024x256.ReducesTo [0, 1, 2] S_
  bcast_S_S1024x64 : S_.BroadcastsInDim S1024x64 (![] : Fin 0 → Fin S1024x64.rank)
  reducesTo_S1024x64_S_d0_1 : S1024x64.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1024 .f32) (main_arg5 : FVec F S1024x1 .f32) (main_arg6 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1 .f32 := Host.absf main_arg5
  let main_cst_8 : FVec F S_ .f32 := constant S_ .f32 0x7F800000#32
  let main_v25 : FVec F S1024x1 .f32 := broadcastInDim S1024x1 ![] bcast_S_S1024x1 main_cst_8
  let main_v26 : IVec S1024x1 1 := cmpf .olt main_v24 main_v25
  let main_c_9 : IVec S_ 1 := constantI S_ 1 1#1
  let main_v27 : IVec S_ 1 := (fun x v => Host.reduce IntOp.andi x v reducesTo_S1024x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1024x256 .f32) (main_arg1 : FVec F S64x1024x256 .f32) (main_arg2 : FVec F S1024x64 .f32) (main_arg3 : FVec F S512x1024 .f32) (main_arg4 : FVec F S1024 .f32) (main_arg5 : FVec F S1024x1 .f32) (main_arg6 : FVec F S1 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S64x1024x256 .f32 := Host.absf main_arg1
  let main_cst_0 : FVec F S_ .f32 := constant S_ .f32 0x7F800000#32
  let main_v5 : FVec F S64x1024x256 .f32 := broadcastInDim S64x1024x256 ![] bcast_S_S64x1024x256 main_cst_0
  let main_v6 : IVec S64x1024x256 1 := cmpf .olt main_v4 main_v5
  let main_c_1 : IVec S_ 1 := constantI S_ 1 1#1
  let main_v7 : IVec S_ 1 := (fun x v => Host.reduce IntOp.andi x v reducesTo_S64x1024x256_S_d0_1_2 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Kernel.lean ====
abbrev S1024x256 : Shape := ⟨2, ![1024, 256]⟩
abbrev S64x1024x256 : Shape := ⟨3, ![64, 1024, 256]⟩
abbrev S1024x64 : Shape := ⟨2, ![1024, 64]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S256x1024 : Shape := ⟨2, ![256, 1024]⟩
abbrev S1x1024 : Shape := ⟨2, ![1, 1024]⟩
abbrev S1x1 : Shape := ⟨2, ![1, 1]⟩
abbrev S64x1024 : Shape := ⟨2, ![64, 1024]⟩
abbrev S64x128x256 : Shape := ⟨3, ![64, 128, 256]⟩
abbrev S128x256 : Shape := ⟨2, ![128, 256]⟩
abbrev S64x128 : Shape := ⟨2, ![64, 128]⟩
abbrev S128x1024 : Shape := ⟨2, ![128, 1024]⟩
abbrev S8x128x256 : Shape := ⟨3, ![8, 128, 256]⟩
abbrev S1024x1024 : Shape := ⟨2, ![1024, 1024]⟩
abbrev S8x128x1024 : Shape := ⟨3, ![8, 128, 1024]⟩
abbrev S1x128x1024 : Shape := ⟨3, ![1, 128, 1024]⟩
abbrev S1x1x1024 : Shape := ⟨3, ![1, 1, 1024]⟩
abbrev S8x128 : Shape := ⟨2, ![8, 128]⟩
abbrev S128 : Shape := ⟨1, ![128]⟩
abbrev S1x128 : Shape := ⟨2, ![1, 128]⟩

abbrev nBuf : Space → Nat
  | .hbm => 17
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S64x1024x256, .f32⟩
  | .hbm, ⟨2, _⟩ => ⟨S1024x64, .f32⟩
  | .hbm, ⟨3, _⟩ => ⟨S512x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S256x1024, .f32⟩
  | .hbm, ⟨8, _⟩ => ⟨S256x1024, .bf16⟩
  | .hbm, ⟨9, _⟩ => ⟨S256x1024, .f32⟩
  | .hbm, ⟨10, _⟩ => ⟨S256x1024, .bf16⟩
  | .hbm, ⟨11, _⟩ => ⟨S1024x256, .bf16⟩
  | .hbm, ⟨12, _⟩ => ⟨S1x1024, .f32⟩
  | .hbm, ⟨13, _⟩ => ⟨S1x1, .f32⟩
  | .hbm, ⟨14, _⟩ => ⟨S64x1024, .f32⟩
  | .hbm, ⟨15, _⟩ => ⟨S64x1024, .f32⟩
  | .hbm, ⟨16, _⟩ => ⟨S1024x64, .f32⟩
  | .local _ .vmem, ⟨0, _⟩ => ⟨S64x128x256, .f32⟩
  | .local _ .vmem, ⟨1, _⟩ => ⟨S64x128x256, .f32⟩
  | .local _ .vmem, ⟨2, _⟩ => ⟨S128x256, .bf16⟩
  | .local _ .vmem, ⟨3, _⟩ => ⟨S128x256, .bf16⟩
  | .local _ .vmem, ⟨4, _⟩ => ⟨S256x1024, .bf16⟩
  | .local _ .vmem, ⟨5, _⟩ => ⟨S256x1024, .bf16⟩
  | .local _ .vmem, ⟨6, _⟩ => ⟨S1024, .f32⟩
  | .local _ .vmem, ⟨7, _⟩ => ⟨S1x1024, .f32⟩
  | .local _ .vmem, ⟨8, _⟩ => ⟨S1x1, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_11 : BitVec 32 := 8#32
  let v21 : BitVec 32 := Scalar.muli arg11 c8_i32_11
  v21
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_11 : BitVec 32 := 8#32
  let v21 : BitVec 32 := Scalar.muli arg11 c8_i32_11
  let v22 : BitVec 32 := v21
  let v23 : Index := Scalar.indexCast v22
  let c0_12 : Index := 0#32
  let c0_13 : Index := 0#32
  ![v23.toNat, 0, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32_11 : BitVec 32 := 8#32
  let v21 : BitVec 32 := Scalar.muli arg11 c8_i32_11
  let v22 : BitVec 32 := v21
  let v46 : Index := Scalar.indexCast v22
  let c0_23 : Index := 0#32
  ![v46.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S512x1024_S256x1024_0_0 : S512x1024.Slices ![0, 0] S256x1024
  bitsLt_bf16_f32 : FTy.bits .bf16 < FTy.bits .f32
  slices_S512x1024_S256x1024_256_0 : S512x1024.Slices ![256, 0] S256x1024
  shapeCasts_S1024x1_S1x1024 : S1024x1.ShapeCasts S1x1024
  shapeCasts_S1_S1x1 : S1.ShapeCasts S1x1
  transposes_S1024x64_S64x1024_1_0 : S1024x64.Transposes [1, 0] S64x1024
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  h_S8x128x256 : 0 < S8x128x256.numel
  shapeCasts_S8x128x256_S1024x256 : S8x128x256.ShapeCasts S1024x256
  shapeCasts_S1024x1024_S8x128x1024 : S1024x1024.ShapeCasts S8x128x1024
  shapeCasts_S128x1024_S1x128x1024 : S128x1024.ShapeCasts S1x128x1024
  broadcasts_S1x128x1024_S8x128x1024 : S1x128x1024.Broadcasts S8x128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S8x128x1024 : S1x1x1024.Broadcasts S8x128x1024
  reduces_S8x128x1024_S8x128 : S8x128x1024.Reduces [2] S8x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x128 : S1x1.Broadcasts S8x128
  h_S8x128 : 0 < S8x128.numel
  shapeCasts_S8x128_S8x128 : S8x128.ShapeCasts S8x128
  inb_S64x128_S64x128_0_0 : ∀ a, (![0, 0] : Fin 2 → Nat) a + S64x128.size a ≤ S64x128.size a
  h_S64x128 : 0 < S64x128.numel
  reduces_S64x128_S128 : S64x128.Reduces [0] S128
  shapeCasts_S128_S1x128 : S128.ShapeCasts S1x128
  broadcasts_S1x128_S64x128 : S1x128.Broadcasts S64x128
  transposes_S64x1024_S1024x64_1_0 : S64x1024.Transposes [1, 0] S1024x64
  dot_S128x256_S256x1024_S128x1024_1_0_0_1_n_n_wf : DotDims.WF S128x256 S256x1024 S128x1024 [1] [0] [0] [1] [] []
  dot_S1024x256_S256x1024_S1024x1024_1_0_0_1_n_n_wf : DotDims.WF S1024x256 S256x1024 S1024x1024 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128x256.size a ≤ S64x128x256.size a
  k0_off2_inb : ∀ k0_t1 : Fin k0_t1_loop.trips, ∀ a, (k0_off2 k0_t1) a + S8x128.size a ≤ S64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x256.size a ≤ S64x1024x256.size a
  hwx0_0 : ∀ i : grid0.Coords, EltTy.bits .f32 = 32 ∨ (Rect.block (s := S64x1024x256) S64x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S1024x256.size a
  hwx0_1 : ∀ i : grid0.Coords, EltTy.bits .bf16 = 32 ∨ (Rect.block (s := S1024x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x1024.size a
  hwx0_7 : ∀ i : grid0.Coords, EltTy.bits .f32 = 32 ∨ (Rect.block (s := S64x1024) S64x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x1024.size a
  hwx0_8 : ∀ i : grid0.Coords, EltTy.bits .f32 = 32 ∨ (Rect.block (s := S64x1024) S64x128.size (cc0_transform_8 i) (hinb0_8 i)).WholeWords (EltTy.packing .f32)

variable [Facts₀]

def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg1) S64x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S64x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x256 : Shape := ⟨2, ![1024, 256]⟩
abbrev S64x1024x256 : Shape := ⟨3, ![64, 1024, 256]⟩
abbrev S1024x64 : Shape := ⟨2, ![1024, 64]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S256x1024 : Shape := ⟨2, ![256, 1024]⟩
abbrev S1024x1024 : Shape := ⟨2, ![1024, 1024]⟩
abbrev S64x1024x1024 : Shape := ⟨3, ![64, 1024, 1024]⟩
abbrev S1x1024x1024 : Shape := ⟨3, ![1, 1024, 1024]⟩
abbrev S1x1x1024 : Shape := ⟨3, ![1, 1, 1024]⟩
abbrev S_ : Shape := ⟨0, ![]⟩
abbrev S64x1024x1 : Shape := ⟨3, ![64, 1024, 1]⟩
abbrev S1x1x1 : Shape := ⟨3, ![1, 1, 1]⟩
abbrev S64x1024 : Shape := ⟨2, ![64, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S64x1024x256, .f32⟩
  | .hbm, ⟨2, _⟩ => ⟨S1024x64, .f32⟩
  | .hbm, ⟨3, _⟩ => ⟨S512x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S64x1024x1024, .f32⟩
  | .hbm, ⟨11, _⟩ => ⟨S1x1024x1024, .f32⟩
  | .hbm, ⟨12, _⟩ => ⟨S64x1024x1024, .f32⟩
  | .hbm, ⟨13, _⟩ => ⟨S64x1024x1024, .f32⟩
  | .hbm, ⟨14, _⟩ => ⟨S1x1x1024, .f32⟩
  | .hbm, ⟨15, _⟩ => ⟨S64x1024x1024, .f32⟩
  | .hbm, ⟨16, _⟩ => ⟨S64x1024x1024, .f32⟩
  | .hbm, ⟨17, _⟩ => ⟨S_, .f32⟩
  | .hbm, ⟨18, _⟩ => ⟨S64x1024x1024, .f32⟩
  | .hbm, ⟨19, _⟩ => ⟨S64x1024x1024, .f32⟩
  | .hbm, ⟨20, _⟩ => ⟨S64x1024x1, .f32⟩
  | .hbm, ⟨21, _⟩ => ⟨S1x1x1, .f32⟩
  | .hbm, ⟨22, _⟩ => ⟨S64x1024x1, .f32⟩
  | .hbm, ⟨23, _⟩ => ⟨S64x1024x1, .f32⟩
  | .hbm, ⟨24, _⟩ => ⟨S64x1024, .f32⟩
  | .hbm, ⟨25, _⟩ => ⟨S1024x64, .f32⟩
  | .hbm, ⟨26, _⟩ => ⟨S1024x64, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024x1, .f32⟩
  | .hbm, ⟨33, _⟩ => ⟨S1024x64, .f32⟩
  | .hbm, ⟨34, _⟩ => ⟨S1024x64, .f32⟩
  | .hbm, ⟨35, _⟩ => ⟨S1024x64, .f32⟩
  | .hbm, ⟨36, _⟩ => ⟨S_, .f32⟩
  | .hbm, ⟨37, _⟩ => ⟨S1024, .f32⟩
  | .hbm, ⟨38, _⟩ => ⟨S1024x1, .f32⟩
  | .hbm, ⟨39, _⟩ => ⟨S1024x64, .f32⟩
  | .hbm, ⟨40, _⟩ => ⟨S1024x64, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S512x1024_S256x1024_0_0 : S512x1024.Slices ![0, 0] S256x1024
  slices_S512x1024_S256x1024_256_0 : S512x1024.Slices ![256, 0] S256x1024
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  bcast_S1024_S1x1x1024_2 : S1024.BroadcastsInDim S1x1x1024 (![2] : Fin 1 → Fin S1x1x1024.rank)
  bcast_S1x1x1024_S64x1024x1024_0_1_2 : S1x1x1024.BroadcastsInDim S64x1024x1024 (![0, 1, 2] : Fin 3 → Fin S64x1024x1024.rank)
  bcast_S_S64x1024x1024 : S_.BroadcastsInDim S64x1024x1024 (![] : Fin 0 → Fin S64x1024x1024.rank)
  bcast_S1_S1x1x1_2 : S1.BroadcastsInDim S1x1x1 (![2] : Fin 1 → Fin S1x1x1.rank)
  bcast_S1x1x1_S64x1024x1_0_1_2 : S1x1x1.BroadcastsInDim S64x1024x1 (![0, 1, 2] : Fin 3 → Fin S64x1024x1.rank)
  shapeCasts_S64x1024x1_S64x1024 : S64x1024x1.ShapeCasts S64x1024
  transposes_S64x1024_S1024x64_1_0 : S64x1024.Transposes [1, 0] S1024x64
  reducesTo_S1024x64_S1024_d1 : S1024x64.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  dot_S1024x256_S256x1024_S1024x1024_1_0_0_1_n_n_wf : DotDims.WF S1024x256 S256x1024 S1024x1024 [1] [0] [0] [1] [] []
  dot_S64x1024x256_S256x1024_S64x1024x1024_2_0_01_1_n_n_wf : DotDims.WF S64x1024x256 S256x1024 S64x1024x1024 [2] [0] [0, 1] [1] [] []
  dot_S64x1024x1024_S1024x1_S64x1024x1_2_0_01_1_n_n_wf : DotDims.WF S64x1024x1024 S1024x1 S64x1024x1 [2] [0] [0, 1] [1] [] []

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S64x1024x256_S256x1024_S64x1024x1024_2_0_01_1_n_n : DotDims S64x1024x256 S256x1024 S64x1024x1024 where
  lhsContracting := [2]
  rhsContracting := [0]
  lhsNonContracting := [0, 1]
  rhsNonContracting := [1]
  lhsBatch := []
  rhsBatch := []
  wf := dot_S64x1024x256_S256x1024_S64x1024x1024_2_0_01_1_n_n_wf
def dot_S64x1024x1024_S1024x1_S64x1024x1_2_0_01_1_n_n : DotDims S64x1024x1024 S1024x1 S64x1024x1 where
  lhsContracting := [2]
  rhsContracting := [0]
  lhsNonContracting := [0, 1]
  rhsNonContracting := [1]
  lhsBatch := []
  rhsBatch := []
  wf := dot_S64x1024x1024_S1024x1_S64x1024x1_2_0_01_1_n_n_wf

class Facts : Prop extends Facts₀ where

variable [Facts]
-- ==== Proof.LibMatmulCols.lean ====
/-
  A matrix product that contracts BOTH operands' leading axes, read at one entry.

  For dimension numbers that contract the left operand's first axis with the right operand's first axis — the left
  operand [n, a], the right operand [n, b], the result [a, b], no batch axes: the product of the left operand's
  transpose with the right operand, no transpose formed — the entry (p, q) of the product is the sum over k of
  left (k, p) times right (k, q).

  `matmul_zero_cols`   a `tpu.matmul` into the zero accumulator at the ideal instance.
-/
import Idealize.ShloMosaic.PureOps.Ideal.Laws
import Idealize.ShloMosaic.Lib.ValueIdx

noncomputable section

open scoped BigOperators

namespace Cert.Lib.MatmulCols

open Idealize.ShloMosaic Idealize.ShloMosaic.ValueIdx

variable {a n b : ℕ}

/-- A `tpu.matmul` of an [n, a] by an [n, b] operand contracting the two leading axes, into the zero accumulator, at
    the ideal instance, read at `(p, q)`: the sum over `k` of left `(k, p)` times right `(k, q)`. -/
theorem matmul_zero_cols {φ₁ φ₂ : FTy}
    (w : DotDims.WF ⟨2, ![n, a]⟩ ⟨2, ![n, b]⟩ ⟨2, ![a, b]⟩ [0] [0] [1] [1] [] [])
    (prec : Option ContractPrecision) (l : FVec Ideal ⟨2, ![n, a]⟩ φ₁) (r : FVec Ideal ⟨2, ![n, b]⟩ φ₂)
    (p : Fin a) (q : Fin b) :
    matmul (⟨[0], [0], [1], [1], [], [], w⟩ : DotDims ⟨2, ![n, a]⟩ ⟨2, ![n, b]⟩ ⟨2, ![a, b]⟩) prec l r
        (constant ⟨2, ![a, b]⟩ .f32 0x00000000#32) (ix2 p q)
      = ∑ k : Fin n, l (ix2 k p) * r (ix2 k q) := by
  refine (Ideal.matmul_constant_zero_apply (⟨[0], [0], [1], [1], [], [], w⟩ : DotDims ⟨2, ![n, a]⟩ ⟨2, ![n, b]⟩ ⟨2, ![a, b]⟩) prec l r (ix2 p q)).trans ?_
  rw [← Equiv.sum_comp (contrEquiv1 (⟨[0], [0], [1], [1], [], [], w⟩ : DotDims ⟨2, ![n, a]⟩ ⟨2, ![n, b]⟩ ⟨2, ![a, b]⟩) n rfl rfl).symm]
  refine Finset.sum_congr rfl fun k _ => ?_
  have c2 := contrEquiv1_symm_val
    (⟨[0], [0], [1], [1], [], [], w⟩ : DotDims ⟨2, ![n, a]⟩ ⟨2, ![n, b]⟩ ⟨2, ![a, b]⟩) n rfl rfl k
  have l2 : (⟨[0], [0], [1], [1], [], [], w⟩ : DotDims ⟨2, ![n, a]⟩ ⟨2, ![n, b]⟩ ⟨2, ![a, b]⟩).lhsIdx (ix2 p q)
      ((contrEquiv1 _ n rfl rfl).symm k) = ix2 k p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![n, a]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

/-- The plain product of an [a, n] by an [n, b] operand as a `tpu.matmul` into the zero accumulator, at the ideal
    instance, read at `(p, q)`: the sum over `k` of left `(p, k)` times right `(k, q)`. -/
theorem matmul_zero_plain {φ₁ φ₂ : FTy}
    (w : DotDims.WF ⟨2, ![a, n]⟩ ⟨2, ![n, b]⟩ ⟨2, ![a, b]⟩ [1] [0] [0] [1] [] [])
    (prec : Option ContractPrecision) (l : FVec Ideal ⟨2, ![a, n]⟩ φ₁) (r : FVec Ideal ⟨2, ![n, b]⟩ φ₂)
    (p : Fin a) (q : Fin b) :
    matmul (⟨[1], [0], [0], [1], [], [], w⟩ : DotDims ⟨2, ![a, n]⟩ ⟨2, ![n, b]⟩ ⟨2, ![a, b]⟩) prec l r
        (constant ⟨2, ![a, b]⟩ .f32 0x00000000#32) (ix2 p q)
      = ∑ k : Fin n, l (ix2 p k) * r (ix2 k q) := by
  refine (Ideal.matmul_constant_zero_apply (⟨[1], [0], [0], [1], [], [], w⟩ : DotDims ⟨2, ![a, n]⟩ ⟨2, ![n, b]⟩ ⟨2, ![a, b]⟩) prec l r (ix2 p q)).trans ?_
  rw [← Equiv.sum_comp (contrEquiv1 (⟨[1], [0], [0], [1], [], [], w⟩ : DotDims ⟨2, ![a, n]⟩ ⟨2, ![n, b]⟩ ⟨2, ![a, b]⟩) n rfl rfl).symm]
  refine Finset.sum_congr rfl fun k _ => ?_
  have c2 := contrEquiv1_symm_val
    (⟨[1], [0], [0], [1], [], [], w⟩ : DotDims ⟨2, ![a, n]⟩ ⟨2, ![n, b]⟩ ⟨2, ![a, b]⟩) n rfl rfl k
  have l2 : (⟨[1], [0], [0], [1], [], [], w⟩ : DotDims ⟨2, ![a, n]⟩ ⟨2, ![n, b]⟩ ⟨2, ![a, b]⟩).lhsIdx (ix2 p q)
      ((contrEquiv1 _ n rfl rfl).symm k) = ix2 p k := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, n]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

end Cert.Lib.MatmulCols

end
-- ==== Proof.ScoreChunk.lean ====
/-
  The store of one loop trip, read at an entry.

  A trip handles 8 stations at once for the tile's 128 samples.  From the 8 stations' embeddings `x` [8,128,256],
  the station half `A` [256,1024] and the sample half `B` [256,1024] of the first weight matrix, the tile's
  unlabelled embeddings `u` [128,256], the bias `b` [1024], the second weight as a row `w` [1,1024], its bias
  `c` [1,1] and the 8 stations' distance weights `d` [8,128], it stores, at station `r` and sample `j`,
      (Σ_h max(Σ_e x(r,j,e)·A(e,h) + (Σ_k u(j,k)·B(k,h) + b(h)), 0) · w(0,h)  +  c(0,0)) · d(r,j).
  The embeddings are flattened to 1024 rows for the product and the result is unflattened: row r·128 + j.
-/
import proofs.«174531_j44968307589649_2_alg».proof.Proof.Gen.KernelIdeal.Skeleton
import proofs.«174531_j44968307589649_2_alg».proof.Proof.LibMatmulCols
import Idealize.ShloMosaic.PureOps.Ideal.Laws
import Idealize.ShloMosaic.Lib.ValueIdx
import Idealize.ShloMosaic.Lib.ValueLayout
import Idealize.ShloMosaic.Lib.Pipeline.Value

noncomputable section

namespace Cert.KernelValue

open Idealize.ShloMosaic Idealize.ShloMosaic.ValueIdx Cert.KernelIdeal Cert.KernelIdeal.Gen Cert.Lib.MatmulCols

/-- Row `r·128 + j` of the flattened 8 × 128 stations-by-samples block. -/
abbrev flat (r : Fin 8) (j : Fin 128) : Fin 1024 := ⟨r.val * 128 + j.val, by have := r.isLt; have := j.isLt; omega⟩

/-- The flattened embeddings at row `r·128 + j` are the embeddings at `(r, j)`. -/
theorem flatten_at (x : FVec Ideal S8x128x256 .bf16) (r : Fin 8) (j : Fin 128) (e : Fin 256) :
    shapeCast S1024x256 x shapeCasts_S8x128x256_S1024x256 (ix2 (flat r j) e) = x (ix3 r j e) :=
  shapeCast_apply x shapeCasts_S8x128x256_S1024x256 _ _ (by
    rw [Shape.rowMajor_val_three, Shape.rowMajor_val_two]; rfl)

/-- The unflattened product at `(r, j, h)` is the product at row `r·128 + j`. -/
theorem unflatten_at (y : FVec Ideal S1024x1024 .f32) (r : Fin 8) (j : Fin 128) (h : Fin 1024) :
    shapeCast S8x128x1024 y shapeCasts_S1024x1024_S8x128x1024 (ix3 r j h) = y (ix2 (flat r j) h) :=
  shapeCast_apply y shapeCasts_S1024x1024_S8x128x1024 _ _ (by
    rw [Shape.rowMajor_val_three, Shape.rowMajor_val_two]; rfl)

/-- A [128,1024] table stood up as [1,128,1024] and repeated over the 8 stations, read at `(r, j, h)`. -/
theorem overStations_at (y : FVec Ideal S128x1024 .f32) (r : Fin 8) (j : Fin 128) (h : Fin 1024) :
    broadcastTo S8x128x1024 (shapeCast S1x128x1024 y shapeCasts_S128x1024_S1x128x1024) broadcasts_S1x128x1024_S8x128x1024
      (ix3 r j h) = y (ix2 j h) := by
  refine (broadcastTo_apply _ broadcasts_S1x128x1024_S8x128x1024 (ix3 r j h) (ix3 (0 : Fin 1) j h) fun ax => ?_).trans
    (shapeCast_ab_1ab_apply y shapeCasts_S128x1024_S1x128x1024 0 j h)
  match ax with
  | ⟨0, _⟩ => rfl
  | ⟨1, _⟩ => rfl
  | ⟨2, _⟩ => rfl

/-- A [1,1024] row stood up as [1,1,1024] and repeated over stations and samples, read at `(r, j, h)`. -/
theorem overAll_at (w : FVec Ideal S1x1024 .f32) (r : Fin 8) (j : Fin 128) (h : Fin 1024) :
    broadcastTo S8x128x1024 (shapeCast S1x1x1024 w shapeCasts_S1x1024_S1x1x1024) broadcasts_S1x1x1024_S8x128x1024
      (ix3 r j h) = w (ix2 (0 : Fin 1) h) := by
  refine (broadcastTo_apply _ broadcasts_S1x1x1024_S8x128x1024 (ix3 r j h) (ix3 (0 : Fin 1) (0 : Fin 1) h) fun ax => ?_).trans
    (shapeCast_ab_1ab_apply w shapeCasts_S1x1024_S1x1x1024 0 0 h)
  match ax with
  | ⟨0, _⟩ => rfl
  | ⟨1, _⟩ => rfl
  | ⟨2, _⟩ => rfl

/-- A [1024] vector laid down as a row and repeated over the 128 samples, read at `(j, h)`. -/
theorem overSamples_at (b : FVec Ideal S1024 .f32) (j : Fin 128) (h : Fin 1024) :
    broadcastTo S128x1024 (shapeCast S1x1024 b shapeCasts_S1024_S1x1024) broadcasts_S1x1024_S128x1024 (ix2 j h) = b (ix1 h) :=
  (broadcastTo_1b_ab_apply _ broadcasts_S1x1024_S128x1024 j h).trans (shapeCast_a_1a_apply b shapeCasts_S1024_S1x1024 0 h)

/-- The one entry of a [1,1] array repeated over stations and samples. -/
theorem scalarSpread_at (c : FVec Ideal S1x1 .f32) (r : Fin 8) (j : Fin 128) :
    broadcastTo S8x128 c broadcasts_S1x1_S8x128 (ix2 r j) = c (ix2 (0 : Fin 1) (0 : Fin 1)) :=
  broadcastTo_apply c broadcasts_S1x1_S8x128 (ix2 r j) (ix2 (0 : Fin 1) (0 : Fin 1)) fun ax => by
    match ax with
    | ⟨0, _⟩ => rfl
    | ⟨1, _⟩ => rfl

/-- The sum over the hidden axis of an [8,128,1024] array, read at `(r, j)`. -/
theorem hiddenSum_at (y : FVec Ideal S8x128x1024 .f32) (hacc : (0x00000000#32 : BitVec 32) = 0x00000000#32) (r : Fin 8) (j : Fin 128) :
    multiReduction .add [2] S8x128 y 0x00000000#32 reduces_S8x128x1024_S8x128 (.inl rfl) hacc (ix2 r j)
      = ∑ h : Fin 1024, y (ix3 r j h) := by
  refine (Ideal.multiReduction_add_single y 0x00000000#32 reduces_S8x128x1024_S8x128 (.inl rfl) hacc (ix2 r j)).trans ?_
  refine Finset.sum_congr rfl fun h _ => ?_
  exact congrArg y (funext fun a => Fin.ext (by match a with | ⟨0, _⟩ => rfl | ⟨1, _⟩ => rfl | ⟨2, _⟩ => rfl))

/-- The sample's part of the hidden layer with the bias, at `(j, h)` of the tile. -/
def samplePart (u : FVec Ideal S128x256 .bf16) (B : FVec Ideal S256x1024 .bf16) (b : FVec Ideal S1024 .f32)
    (j : Fin 128) (h : Fin 1024) : EReal :=
  (∑ k : Fin 256, u (ix2 j k) * B (ix2 k h)) + b (ix1 h)

/-- The trip's scaled score at station `r`, sample `j`. -/
def chunkScore (u : FVec Ideal S128x256 .bf16) (B : FVec Ideal S256x1024 .bf16) (b : FVec Ideal S1024 .f32)
    (x : FVec Ideal S8x128x256 .f32) (A : FVec Ideal S256x1024 .bf16) (w : FVec Ideal S1x1024 .f32) (c : FVec Ideal S1x1 .f32)
    (d : FVec Ideal S8x128 .f32) (r : Fin 8) (j : Fin 128) : EReal :=
  ((∑ h : Fin 1024, max ((∑ e : Fin 256, x (ix3 r j e) * A (ix2 e h)) + samplePart u B b j h) 0 * w (ix2 (0 : Fin 1) h))
    + c (ix2 (0 : Fin 1) (0 : Fin 1))) * d (ix2 r j)

/-- The hidden layer before the rectifier, at `(r, j, h)`. -/
theorem hiddenPre_at (u : FVec Ideal S128x256 .bf16) (B : FVec Ideal S256x1024 .bf16) (b : FVec Ideal S1024 .f32)
    (x : FVec Ideal S8x128x256 .f32) (A : FVec Ideal S256x1024 .bf16) (r : Fin 8) (j : Fin 128) (h : Fin 1024) :
    addf (shapeCast S8x128x1024 (matmul dot_S1024x256_S256x1024_S1024x1024_1_0_0_1_n_n none
          (shapeCast S1024x256 (truncf .bf16 x bitsLt_bf16_f32) shapeCasts_S8x128x256_S1024x256)
          A (constant S1024x1024 .f32 0x00000000#32))
        shapeCasts_S1024x1024_S8x128x1024)
      (broadcastTo S8x128x1024 (shapeCast S1x128x1024
          (addf (matmul dot_S128x256_S256x1024_S128x1024_1_0_0_1_n_n none u B (constant S128x1024 .f32 0x00000000#32))
            (broadcastTo S128x1024 (shapeCast S1x1024 b shapeCasts_S1024_S1x1024) broadcasts_S1x1024_S128x1024))
          shapeCasts_S128x1024_S1x128x1024) broadcasts_S1x128x1024_S8x128x1024) (ix3 r j h)
      = (∑ e : Fin 256, x (ix3 r j e) * A (ix2 e h)) + samplePart u B b j h := by
  rw [addf_apply, unflatten_at, overStations_at, addf_apply, overSamples_at]
  unfold samplePart
  refine congrArg₂ (· + ·) ?_ (congrArg (· + b (ix1 h)) ?_)
  · refine (matmul_zero_plain dot_S1024x256_S256x1024_S1024x1024_1_0_0_1_n_n_wf none _ A (flat r j) h).trans ?_
    refine Finset.sum_congr rfl fun e _ => congrArg (· * A (ix2 e h)) ?_
    exact (flatten_at _ r j e).trans (truncf_apply x bitsLt_bf16_f32 _)
  · exact matmul_zero_plain dot_S128x256_S256x1024_S128x1024_1_0_0_1_n_n_wf none u B j h

/-- The trip's store at station `r`, sample `j`. -/
theorem scoreChunk_at (u : Vec Ideal S128x256 .bf16) (B : Vec Ideal S256x1024 .bf16) (b : Vec Ideal S1024 .f32)
    (x : Vec Ideal S8x128x256 .f32) (A : Vec Ideal S256x1024 .bf16) (w : Vec Ideal S1x1024 .f32) (c : Vec Ideal S1x1 .f32)
    (d : Vec Ideal S8x128 .f32) (r : Fin 8) (j : Fin 128) :
    k0_pay1 (F := Ideal) u B b x A w c d (ix2 r j) = chunkScore u B b x A w c d r j := by
  unfold k0_pay1 chunkScore
  dsimp only
  simp only [shapeCast_self]
  rw [mulf_apply, addf_apply, scalarSpread_at, hiddenSum_at]
  refine congrArg (fun s => (s + c (ix2 (0 : Fin 1) (0 : Fin 1))) * d (ix2 r j)) (Finset.sum_congr rfl fun h _ => ?_)
  rw [mulf_apply, overAll_at, maximumf_apply, hiddenPre_at]
  refine congrArg (fun z => max ((∑ e : Fin 256, x (ix3 r j e) * A (ix2 e h)) + samplePart u B b j h) z * w (ix2 (0 : Fin 1) h)) ?_
  show Ideal.ofBits .f32 0x00000000#32 = 0
  exact Ideal.ofBits_zero_f32

end Cert.KernelValue

end
-- ==== Proof.ScratchTable.lean ====
/-
  What the scratch table holds after the loop.

  The loop runs 8 trips; trip k stores, at rows 8k .. 8k+7 of the [64,128] scratch table, the scaled scores of
  stations 8k .. 8k+7 for the tile's 128 samples, computed from rows 8k .. 8k+7 of the tile's embeddings and of
  its distance weights.  The 8 row blocks tile the table, so after the loop the table holds, at station n and
  sample j, the scaled score of station n for sample j, whatever it held before:
      (Σ_h max(Σ_e X(n,j,e)·A(e,h) + (Σ_k u(j,k)·B(k,h) + b(h)), 0) · w(0,h)  +  c(0,0)) · D(n,j).
-/
import proofs.«174531_j44968307589649_2_alg».proof.Proof.Gen.KernelIdeal.Loops
import proofs.«174531_j44968307589649_2_alg».proof.Proof.ScoreChunk
import Idealize.ShloMosaic.Lib.Pipeline.Value
import Idealize.ShloMosaic.Lib.Ring
import Idealize.ShloMosaic.Lib.Tactic

set_option maxRecDepth 16384

noncomputable section

namespace Cert.KernelValue

open Idealize.ShloMosaic Idealize.ShloMosaic.ValueIdx Idealize.ShloMosaic.TcCoe Idealize.ShloMosaic.Tactic Idealize.SL.Sem
open Cert.KernelIdeal Cert.KernelIdeal.Gen

/-- Station `8k + r`: row `r` of trip `k`'s block. -/
abbrev station (k : Fin k0_t1_loop.trips) (r : Fin 8) : Fin 64 :=
  ⟨8 * k.val + r.val, by have := Nat.lt_of_lt_of_le k.isLt k0_t1_abs.2.1; have := r.isLt; omega⟩

/-- The scaled score of station `n` for the tile's sample `j`, from the tile's blocks. -/
def tableScore (u : FVec Ideal S128x256 .bf16) (B : FVec Ideal S256x1024 .bf16) (b : FVec Ideal S1024 .f32)
    (X : FVec Ideal S64x128x256 .f32) (A : FVec Ideal S256x1024 .bf16) (w : FVec Ideal S1x1024 .f32) (c : FVec Ideal S1x1 .f32)
    (D : FVec Ideal S64x128 .f32) (n : Fin 64) (j : Fin 128) : EReal :=
  ((∑ h : Fin 1024, max ((∑ e : Fin 256, X (ix3 n j e) * A (ix2 e h)) + samplePart u B b j h) 0 * w (ix2 (0 : Fin 1) h))
    + c (ix2 (0 : Fin 1) (0 : Fin 1))) * D (ix2 n j)

theorem zero2 : (![0, 0] : Fin 2 → Nat) = fun _ => 0 := funext fun a => by fin_cases a <;> rfl
theorem zero1 : (![0] : Fin 1 → Nat) = fun _ => 0 := funext fun a => by fin_cases a; rfl

/-- Row `r`, column `j` of trip `k`'s block sits at station `8k + r`, sample `j` of the table. -/
theorem chunk_emb (k : Fin k0_t1_loop.trips) (r : Fin 8) (j : Fin 128) :
    (Rect.unit (s := S64x128) (k0_off2 k) S8x128.size (k0_off2_inb k)).emb (ix2 r j) = ix2 (station k r) j := by
  have h := k0_off2_eq k
  funext a; apply Fin.ext
  rw [Rect.emb_apply]
  show (k0_off2 k) a + 1 * ((ix2 r j : S8x128.Idx) a).val = _
  rw [h]
  match a with
  | ⟨0, _⟩ => show 8 * k.val + 1 * r.val = 8 * k.val + r.val; omega
  | ⟨1, _⟩ => show 0 + 1 * j.val = j.val; omega

/-- Trip `k`'s distance weights are rows 8k .. 8k+7 of the tile's. -/
theorem chunk_ld2 (D : FVec Ideal S64x128 .f32) (k : Fin k0_t1_loop.trips) (r : Fin 8) (j : Fin 128) :
    View.ld (Val := Elt Ideal) (e' := .f32) D (Rect.unit (s := S64x128) (k0_off2 k) S8x128.size (k0_off2_inb k)) (ix2 r j) = D (ix2 (station k r) j) :=
  congrArg D (chunk_emb k r j)

/-- Trip `k`'s embeddings are rows 8k .. 8k+7 of the tile's. -/
theorem chunk_ld3 (X : FVec Ideal S64x128x256 .f32) (k : Fin k0_t1_loop.trips) (r : Fin 8) (j : Fin 128) (e : Fin 256) :
    View.ld (Val := Elt Ideal) (e' := .f32) X (Rect.unit (s := S64x128x256) (k0_off1 k) S8x128x256.size (k0_off1_inb k)) (ix3 r j e) = X (ix3 (station k r) j e) := by
  have h := k0_off1_eq k
  refine congrArg X (funext fun a => Fin.ext ?_)
  show (k0_off1 k) a + 1 * ((ix3 r j e : S8x128x256.Idx) a).val = _
  rw [h]
  match a with
  | ⟨0, _⟩ => show 8 * k.val + 1 * r.val = 8 * k.val + r.val; omega
  | ⟨1, _⟩ => show 0 + 1 * j.val = j.val; omega
  | ⟨2, _⟩ => show 0 + 1 * e.val = e.val; omega

section Pieces

variable (𝒱 : Variants) (c : Dev nD) (bd : Option 𝒱.V) (i : grid0.Coords) (arg1 : Memref sig .tc .vmem S64x128x256 .f32) (harg1 : arg1.IsWhole) (arg2 : Memref sig .tc .vmem S128x256 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x128 .f32) (harg10 : arg10.IsWhole)
  (v0 : Vec Ideal S128x256 .bf16) (v2 : Vec Ideal S256x1024 .bf16) (v5 : Vec Ideal S1024 .f32)
  (X_arg1 : BufTy.Contents (Elt Ideal) arg1.view.ty) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty)

/-- One trip leaves one piece: at rows 8k .. 8k+7, the trip's scores of what it loaded. -/
theorem tripPiece (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 v0 v2 v5 X_arg1 X_arg3 X_arg6 X_arg7 X_arg8 k
      = [⟨Rect.unit (s := S64x128) (k0_off2 k) S8x128.size (k0_off2_inb k),
          k0_pay1 v0 v2 v5
            (View.readAt (Elt Ideal) arg1.view (Rect.unit (s := S64x128x256) (k0_off1 k) S8x128x256.size (k0_off1_inb k)).toLoadRect X_arg1)
            (View.readAt (Elt Ideal) arg3.view (Rect.unit ![0, 0] S256x1024.size inb_S256x1024_S256x1024_0_0).toLoadRect X_arg3)
            (View.readAt (Elt Ideal) arg6.view (Rect.unit ![0, 0] S1x1024.size inb_S1x1024_S1x1024_0_0).toLoadRect X_arg6)
            (View.readAt (Elt Ideal) arg7.view (Rect.unit ![0, 0] S1x1.size inb_S1x1_S1x1_0_0).toLoadRect X_arg7)
            (View.readAt (Elt Ideal) arg8.view (Rect.unit (s := S64x128) (k0_off2 k) S8x128.size (k0_off2_inb k)).toLoadRect X_arg8)⟩] := by
  unfold tripL_k0_t1 trip_k0_t1
  rfl

/-- Every piece the first `n` trips left is some trip's piece. -/
theorem pieces_of_trips : ∀ (n : ℕ) (p : View.Piece (Elt Ideal) S64x128 .f32),
    p ∈ pb_k0_t1 (F := Ideal) 𝒱 c bd i arg1 harg1 arg2 harg2 arg3 harg3 arg4 harg4 arg5 harg5 arg6 harg6 arg7 harg7 arg8 harg8 arg9 harg9 arg10 harg10 v0 v2 v5 X_arg1 X_arg3 X_arg6 X_arg7 X_arg8 n →
    ∃ k : Fin k0_t1_loop.trips, p ∈ tripL_k0_t1 (F := Ideal) 𝒱 c bd i arg1 harg1 arg2 harg2 arg3 harg3 arg4 harg4 arg5 harg5 arg6 harg6 arg7 harg7 arg8 harg8 arg9 harg9 arg10 harg10 v0 v2 v5 X_arg1 X_arg3 X_arg6 X_arg7 X_arg8 k
  | 0, p, hp => by rw [pb_k0_t1.eq_1] at hp; exact absurd hp List.not_mem_nil
  | n + 1, p, hp => by
    rw [pb_k0_t1.eq_2] at hp
    unfold pb_k0_t1Step at hp
    split at hp
    · rename_i hlt
      rcases List.mem_append.mp hp with h | h
      · exact ⟨⟨n, hlt⟩, h⟩
      · exact pieces_of_trips n p h
    · exact pieces_of_trips n p hp

end Pieces

section Table

variable (c : Dev nD) (i : grid0.Coords) (arg1 : Memref sig .tc .vmem S64x128x256 .f32) (harg1 : arg1.IsWhole) (arg2 : Memref sig .tc .vmem S128x256 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x128 .f32) (harg10 : arg10.IsWhole)
  (x0 : Vec Ideal S64x128x256 .f32) (x1 : Vec Ideal S128x256 .bf16) (x2 : Vec Ideal S256x1024 .bf16) (x3 : Vec Ideal S256x1024 .bf16) (x4 : Vec Ideal S1024 .f32) (x5 : Vec Ideal S1x1024 .f32) (x6 : Vec Ideal S1x1 .f32) (x7 : Vec Ideal S64x128 .f32)

/-- The pieces the whole loop left in the scratch table, the loads spelt as the run spells them. -/
abbrev loopPieces : List (View.Piece (Elt Ideal) S64x128 .f32) :=
  (pb_k0_t1 (F := Ideal) Variants.none c none i arg1 harg1 arg2 harg2 arg3 harg3 arg4 harg4 arg5 harg5 arg6 harg6 arg7 harg7 arg8 harg8 arg9 harg9 arg10 harg10
        (View.readAt (Elt Ideal) arg2.view (Rect.unit ![0, 0] S128x256.size inb_S128x256_S128x256_0_0).toLoadRect (harg2.unread x1))
        (View.readAt (Elt Ideal) arg4.view (Rect.unit ![0, 0] S256x1024.size inb_S256x1024_S256x1024_0_0).toLoadRect (harg4.unread x3))
        (View.readAt (Elt Ideal) arg5.view (Rect.unit ![0] S1024.size inb_S1024_S1024_0).toLoadRect (harg5.unread x4))
        (harg1.unread x0) (harg3.unread x2) (harg6.unread x5) (harg7.unread x6) (harg8.unread x7)
        (Scf.trips k0_t1_loop.lb k0_t1_loop.ub k0_t1_loop.st))

/-- The scratch table after the loop, read at station `n` and sample `j`. -/
theorem scratch_at (n : Fin 64) (j : Fin 128) :
    View.canon (loopPieces c i arg1 harg1 arg2 harg2 arg3 harg3 arg4 harg4 arg5 harg5 arg6 harg6 arg7 harg7 arg8 harg8 arg9 harg9 arg10 harg10 x0 x1 x2 x3 x4 x5 x6 x7) (ix2 n j)
      = tableScore x1 x3 x4 x0 x2 x5 x6 x7 n j := by
  refine View.canon_apply_of_pieces (Val := Elt Ideal) (S := S64x128) (e := .f32) (fun y : S64x128.Idx => (tableScore x1 x3 x4 x0 x2 x5 x6 x7 (y 0) (y 1) : Elt Ideal .f32)) _ (fun p hp x => ?_) (ix2 n j)
    (View.cover_of_tiledL (s := S64x128) _ S8x128.size (by sl_kernel_rfl) (ix2 n j))
  obtain ⟨k, hk⟩ := pieces_of_trips _ c _ i arg1 harg1 arg2 harg2 arg3 harg3 arg4 harg4 arg5 harg5 arg6 harg6 arg7 harg7 arg8 harg8 arg9 harg9 arg10 harg10 _ _ _ _ _ _ _ _ _ p hp
  rw [tripPiece] at hk
  obtain rfl := List.mem_singleton.mp hk
  obtain ⟨r, j', rfl⟩ : ∃ (r : Fin 8) (j' : Fin 128), x = ix2 r j' := ⟨x 0, x 1, eq_ix2 x⟩
  show k0_pay1 (F := Ideal) _ _ _ _ _ _ _ _ (ix2 r j') = tableScore x1 x3 x4 x0 x2 x5 x6 x7
    (((Rect.unit (s := S64x128) (k0_off2 k) S8x128.size (k0_off2_inb k)).emb (ix2 r j')) 0)
    (((Rect.unit (s := S64x128) (k0_off2 k) S8x128.size (k0_off2_inb k)).emb (ix2 r j')) 1)
  rw [chunk_emb k r j', scoreChunk_at]
  simp only [View.readAt_eq_ld, harg1.read_unread, harg2.read_unread, harg3.read_unread, harg4.read_unread, harg5.read_unread,
    harg6.read_unread, harg7.read_unread, harg8.read_unread, View.ld_unit_zero (S := S128x256) zero2,
    View.ld_unit_zero (S := S256x1024) zero2, View.ld_unit_zero (S := S1024) zero1, View.ld_unit_zero (S := S1x1024) zero2,
    View.ld_unit_zero (S := S1x1) zero2]
  unfold chunkScore tableScore
  rw [chunk_ld2]
  refine congrArg (fun s => (s + x6 (ix2 (0 : Fin 1) (0 : Fin 1))) * x7 (ix2 (station k r) j')) (Finset.sum_congr rfl fun h _ => ?_)
  refine congrArg (fun s => max (s + samplePart x1 x3 x4 j' h) 0 * x5 (ix2 (0 : Fin 1) h)) (Finset.sum_congr rfl fun e _ => ?_)
  rw [chunk_ld3]

end Table

end Cert.KernelValue

end
-- ==== Proof.SoftmaxBlock.lean ====
/-
  The last store of the kernel body, read at an entry.

  After the loop the body holds a [64,128] table `v` of scaled scores (stations down, the tile's samples across).
  It takes each column's largest entry, subtracts it, exponentiates, sums each column, and divides: the
  soft-max over the stations, column by column.  Entry `(n, j)` is
      exp(v(n,j) − M(j)) / Σ_n' exp(v(n',j) − M(j)),     M(j) = max_n' v(n',j),
  the maximum taken as a fold from the bottom element and the sum as a plain finite sum.
-/
import proofs.«174531_j44968307589649_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelValue

open Idealize.ShloMosaic Idealize.ShloMosaic.ValueIdx Cert.KernelIdeal Cert.KernelIdeal.Gen

/-- The word of minus infinity is the bottom element. -/
theorem ofBits_neg_inf : Ideal.ofBits .f32 0xFF800000#32 = (⊥ : EReal) := by
  simp [Ideal.ofBits, Ideal.ieee]

/-- A column's largest entry. -/
def colTop (v : FVec Ideal S64x128 .f32) (j : Fin 128) : EReal :=
  (Finset.univ : Finset (Fin 64)).fold max ⊥ (fun n' => v (ix2 n' j))

/-- The maximum over the stations, read at column `j`. -/
theorem colMax_at (v : FVec Ideal S64x128 .f32) (hacc : (0xFF800000#32 : BitVec 32) = 0xFF800000#32) (j : Fin 128) :
    multiReduction .maximumf [0] S128 v 0xFF800000#32 reduces_S64x128_S128 (.inl rfl) hacc (ix1 j) = colTop v j := by
  refine (Ideal.multiReduction_maximumf_single v 0xFF800000#32 reduces_S64x128_S128 (.inl rfl) hacc (ix1 j)).trans ?_
  unfold colTop
  rw [Ideal.ofBits_def, ofBits_neg_inf]
  refine congrArg (Finset.fold max ⊥ · Finset.univ) (funext fun n' => ?_)
  exact congrArg v (funext fun a => Fin.ext (by match a with | ⟨0, _⟩ => rfl | ⟨1, _⟩ => rfl))

/-- The sum over the stations, read at column `j`. -/
theorem colSum_at (v : FVec Ideal S64x128 .f32) (hacc : (0x00000000#32 : BitVec 32) = 0x00000000#32) (j : Fin 128) :
    multiReduction .add [0] S128 v 0x00000000#32 reduces_S64x128_S128 (.inl rfl) hacc (ix1 j) = ∑ n' : Fin 64, v (ix2 n' j) := by
  refine (Ideal.multiReduction_add_single v 0x00000000#32 reduces_S64x128_S128 (.inl rfl) hacc (ix1 j)).trans ?_
  refine Finset.sum_congr rfl fun n' _ => ?_
  exact congrArg v (funext fun a => Fin.ext (by match a with | ⟨0, _⟩ => rfl | ⟨1, _⟩ => rfl))

/-- A [128] row laid down as [1,128] and repeated over the 64 stations, read at `(n, j)`, is the row at `j`. -/
theorem rowSpread_at (r : FVec Ideal S128 .f32) (n : Fin 64) (j : Fin 128) :
    broadcastTo S64x128 (shapeCast S1x128 r shapeCasts_S128_S1x128) broadcasts_S1x128_S64x128 (ix2 n j) = r (ix1 j) :=
  (broadcastTo_1b_ab_apply _ broadcasts_S1x128_S64x128 n j).trans (shapeCast_a_1a_apply r shapeCasts_S128_S1x128 0 j)

/-- The shifted exponential at entry `(n', j)`. -/
theorem expShift_at (v : FVec Ideal S64x128 .f32) (n' : Fin 64) (j : Fin 128) :
    exp (F := Ideal) (subf v (broadcastTo S64x128 (shapeCast S1x128
      (multiReduction .maximumf [0] S128 v 0xFF800000#32 reduces_S64x128_S128 (.inl rfl) rfl) shapeCasts_S128_S1x128)
      broadcasts_S1x128_S64x128)) (ix2 n' j) = Ideal.exp (v (ix2 n' j) - colTop v j) := by
  show Ideal.exp (v (ix2 n' j) - _) = _
  rw [rowSpread_at, colMax_at]

/-- The soft-max store at entry `(n, j)`. -/
theorem softmaxBlock_at (v : Vec Ideal S64x128 .f32) (n : Fin 64) (j : Fin 128) :
    k0_pay2 (F := Ideal) v (ix2 n j)
      = Ideal.div (Ideal.exp (v (ix2 n j) - colTop v j)) (∑ n' : Fin 64, Ideal.exp (v (ix2 n' j) - colTop v j)) := by
  unfold k0_pay2
  dsimp only
  rw [divf_apply, rowSpread_at, colSum_at, expShift_at]
  exact congrArg _ (Finset.sum_congr rfl fun n' _ => expShift_at v n' j)

end Cert.KernelValue

end
-- ==== Proof.Spec.lean ====
/-
  The function both programs compute, entry by entry, over the extended reals.

  For a station n (64 of them) and a sample b (1024 of them):
    hidden(n,b,h) = Σ_e lab(n,b,e)·W1(e,h) + Σ_u unl(b,u)·W1(256+u,h) + b1(h)        (h < 1024)
    score(n,b)    = (Σ_h max(hidden(n,b,h), 0)·W2(h,0) + b2(0)) · dis(b,n)
    out(b,n)      = exp(score(n,b) − M(b)) / Σ_n' exp(score(n',b) − M(b)),   M(b) = max_n' score(n',b)
  The two programs differ only in how the three summands of `hidden` are bracketed; addition of
  extended reals is associative, so no finiteness is needed.
-/
import Idealize.ShloMosaic.PureOps.Ideal
import Idealize.ShloMosaic.Lib.ValueIdx

noncomputable section

namespace Cert.Spec

open Idealize.ShloMosaic Idealize.ShloMosaic.ValueIdx

/-- Row `256 + u` of the stacked weight matrix: the half that multiplies the unlabelled embedding. -/
abbrev lo (u : Fin 256) : Fin 512 := ⟨256 + u.val, by have := u.isLt; omega⟩
/-- Row `e` of the stacked weight matrix: the half that multiplies a station's embedding. -/
abbrev up (e : Fin 256) : Fin 512 := ⟨e.val, by have := e.isLt; omega⟩

variable (unl : (⟨2, ![1024, 256]⟩ : Shape).Idx → EReal) (lab : (⟨3, ![64, 1024, 256]⟩ : Shape).Idx → EReal)
  (dis : (⟨2, ![1024, 64]⟩ : Shape).Idx → EReal) (W1 : (⟨2, ![512, 1024]⟩ : Shape).Idx → EReal)
  (b1 : (⟨1, ![1024]⟩ : Shape).Idx → EReal) (W2 : (⟨2, ![1024, 1]⟩ : Shape).Idx → EReal)
  (b2 : (⟨1, ![1]⟩ : Shape).Idx → EReal)

/-- The station's part of the hidden layer: its embedding against the upper half of `W1`. -/
def labPart (n : Fin 64) (b : Fin 1024) (h : Fin 1024) : EReal :=
  ∑ e : Fin 256, lab (ix3 n b e) * W1 (ix2 (up e) h)

/-- The sample's part of the hidden layer: the unlabelled embedding against the lower half of `W1`. -/
def unlPart (b : Fin 1024) (h : Fin 1024) : EReal :=
  ∑ u : Fin 256, unl (ix2 b u) * W1 (ix2 (lo u) h)

/-- The hidden layer before the rectifier, bracketed as the reference adds it. -/
def hidden (n : Fin 64) (b : Fin 1024) (h : Fin 1024) : EReal :=
  (labPart lab W1 n b h + unlPart unl W1 b h) + b1 (ix1 h)

/-- The same, bracketed as the kernel adds it (the sample's part and the bias first). -/
theorem hidden_assoc (n : Fin 64) (b : Fin 1024) (h : Fin 1024) :
    labPart lab W1 n b h + (unlPart unl W1 b h + b1 (ix1 h)) = hidden unl lab W1 b1 n b h :=
  (add_assoc _ _ _).symm

/-- The attention score of station `n` for sample `b`, scaled by the distance weight. -/
def score (n : Fin 64) (b : Fin 1024) : EReal :=
  ((∑ h : Fin 1024, max (hidden unl lab W1 b1 n b h) 0 * W2 (ix2 h (0 : Fin 1))) + b2 (ix1 (0 : Fin 1))) * dis (ix2 b n)

/-- The largest of a sample's 64 scores (a fold of `max` from the bottom element). -/
def top (s : Fin 64 → Fin 1024 → EReal) (b : Fin 1024) : EReal :=
  (Finset.univ : Finset (Fin 64)).fold max ⊥ (fun n => s n b)

/-- The soft-max over the stations of a table of scores, entry `(b, n)`. -/
def softmax (s : Fin 64 → Fin 1024 → EReal) (b : Fin 1024) (n : Fin 64) : EReal :=
  Ideal.div (Ideal.exp (s n b - top s b)) (∑ n' : Fin 64, Ideal.exp (s n' b - top s b))

/-- The result, entry `(b, n)`. -/
def out (b : Fin 1024) (n : Fin 64) : EReal :=
  softmax (score unl lab dis W1 b1 W2 b2) b n

end Cert.Spec

end
-- ==== Proof.Blocks.lean ====
/-
  What each input block of the kernel holds, as entries of the argument arrays.

  The grid has eight points. At point `t` the station embeddings, the unlabelled embeddings and the distance weights
  are cut into tiles of 128 samples: column `j` of a tile is sample `t * 128 + j`. The other five inputs are whole
  arrays at every point. A block's coordinate in its array is always block index times block size plus the
  coordinate inside the block. Five of the arrays are written before the grid runs, each by one operation on an
  argument (a change of format, which at the extended reals is the identity, after a slice of the stacked weights;
  a change of shape; a transposition), so their entries are entries of the arguments.
-/
import proofs.«174531_j44968307589649_2_alg».proof.Proof.Gen.KernelIdeal.Frame.Runs
import proofs.«174531_j44968307589649_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelValue

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (c : Dev nD) (t : Fin cfg0.N)

/-- The sample that column `j` of a tile is, at point `t`. -/
abbrev row (t : Fin cfg0.N) (j : Fin 128) : Fin 1024 :=
  ⟨t.val * 128 + j.val, by have hN : cfg0.N = 8 := N_0; have := t.isLt; have := j.isLt; omega⟩

/-! ## The index maps, decided once over the grid -/

/-- The station embeddings' block index at point `t` is (0, t, 0). -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

/-- The first bias is one block, at index 0. -/
theorem idx4 : ∀ t : Fin cfg0.N, win0_4.index t (0 : Fin 1) = 0 :=
  (by decide +kernel : ∀ t : Fin grid0.N, _)

/-! ## The two windows over argument arrays -/

/-- Entry `x` of the station embeddings' block at point `t` is the argument's entry `k`, when `k` is `x` moved `t` tiles
    along the sample axis. -/
theorem iblk0_apply (x : S64x128x256.Idx) (k : S64x1024x256.Idx)
    (hk0 : (k 0).val = (x 0).val) (hk1 : (k 1).val = t.val * 128 + (x 1).val) (hk2 : (k 2).val = (x 2).val) :
    (iblk m c 0 t : Vec Ideal S64x128x256 .f32) x = m ((c : Thread nD τ).loc main_arg1) k := by
  obtain ⟨e0, e1, e2⟩ := idx0 t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_0.index t (0 : Fin 3) * 64 + 1 * (x 0).val = (k 0).val; rw [e0, hk0]; omega
  | ⟨1, _⟩ => show win0_0.index t (1 : Fin 3) * 128 + 1 * (x 1).val = (k 1).val; rw [e1, hk1]; omega
  | ⟨2, _⟩ => show win0_0.index t (2 : Fin 3) * 256 + 1 * (x 2).val = (k 2).val; rw [e2, hk2]; omega

/-- The station embeddings' block at point `t`: station `n`, column `j`, feature `e` is the argument at (n, t * 128 + j, e). -/
theorem blk0_at (n : Fin 64) (j : Fin 128) (e : Fin 256) :
    (iblk m c 0 t : Vec Ideal S64x128x256 .f32) (ix3 n j e) = m ((c : Thread nD τ).loc main_arg1) (ix3 n (row t j) e) :=
  iblk0_apply m c t (ix3 n j e) (ix3 n (row t j) e) rfl rfl rfl

/-- Entry `x` of the first bias's block is the argument's entry `x`. -/
theorem iblk4_apply (x : S1024.Idx) (k : S1024.Idx) (hk0 : (k 0).val = (x 0).val) :
    (iblk m c 4 t : Vec Ideal S1024 .f32) x = m ((c : Thread nD τ).loc main_arg4) k := by
  have e0 := idx4 t
  unfold iblk
  rw [View.read_apply]
  show V m c main_arg4 _ = m (c.tc.loc main_arg4) _
  rw [V_main_arg4]
  refine congrArg (m (c.tc.loc main_arg4)) (funext fun a => Fin.ext ?_)
  match a with
  | ⟨0, _⟩ => show win0_4.index t (0 : Fin 1) * 1024 + 1 * (x 0).val = (k 0).val; rw [e0, hk0]; omega

/-- The first bias's block is the whole argument. -/
theorem blk4_at (h : Fin 1024) :
    (iblk m c 4 t : Vec Ideal S1024 .f32) (ix1 h) = m ((c : Thread nD τ).loc main_arg4) (ix1 h) :=
  iblk4_apply m c t (ix1 h) (ix1 h) rfl

/-! ## The arrays written before the grid runs, as operations on the arguments -/

/-- The unlabelled embeddings in the narrower format: at the extended reals, the argument itself. -/
theorem V_v4 : (V m c main_v4 : S1024x256.Idx → EReal) = (m ((c : Thread nD τ).loc main_arg0) : S1024x256.Idx → EReal) := by
  show StableHlo.after hostOps0 (fun b => m (c, b)) (Proc.devRef .tc main_v4) = _
  after_results
  rfl

/-- The upper half of the stacked weights, in the narrower format. -/
theorem V_v1 : (V m c main_v1 : S256x1024.Idx → EReal)
    = extractStridedSlice S256x1024 ![0, 0] (m ((c : Thread nD τ).loc main_arg3) : S512x1024.Idx → EReal) slices_S512x1024_S256x1024_0_0 := by
  show StableHlo.after hostOps0 (fun b => m (c, b)) (Proc.devRef .tc main_v1) = _
  after_results
  rfl

/-- The lower half of the stacked weights, in the narrower format. -/
theorem V_v3 : (V m c main_v3 : S256x1024.Idx → EReal)
    = extractStridedSlice S256x1024 ![256, 0] (m ((c : Thread nD τ).loc main_arg3) : S512x1024.Idx → EReal) slices_S512x1024_S256x1024_256_0 := by
  show StableHlo.after hostOps0 (fun b => m (c, b)) (Proc.devRef .tc main_v3) = _
  after_results
  rfl

/-- The second weight column laid out as a row. -/
theorem V_v5 : (V m c main_v5 : S1x1024.Idx → EReal)
    = shapeCast S1x1024 (m ((c : Thread nD τ).loc main_arg5) : S1024x1.Idx → EReal) shapeCasts_S1024x1_S1x1024 := by
  show StableHlo.after hostOps0 (fun b => m (c, b)) (Proc.devRef .tc main_v5) = _
  after_results
  rfl

/-- The second bias as a one-by-one matrix. -/
theorem V_v6 : (V m c main_v6 : S1x1.Idx → EReal)
    = shapeCast S1x1 (m ((c : Thread nD τ).loc main_arg6) : S1.Idx → EReal) shapeCasts_S1_S1x1 := by
  show StableHlo.after hostOps0 (fun b => m (c, b)) (Proc.devRef .tc main_v6) = _
  after_results
  rfl

/-- The distance weights transposed: stations by samples. -/
theorem V_v7 : (V m c main_v7 : S64x1024.Idx → EReal)
    = transpose S64x1024 [1, 0] (m ((c : Thread nD τ).loc main_arg2) : S1024x64.Idx → EReal) transposes_S1024x64_S64x1024_1_0 := by
  show StableHlo.after hostOps0 (fun b => m (c, b)) (Proc.devRef .tc main_v7) = _
  after_results

/-! ## The index maps of the windows over those arrays -/

/-- The unlabelled embeddings' block index at point `t` is (t, 0). -/
theorem idx1 : ∀ t : Fin cfg0.N, win0_1.index t (0 : Fin 2) = t.val ∧ win0_1.index t (1 : Fin 2) = 0 :=
  (by decide +kernel : ∀ t : Fin grid0.N, _)

/-- Each half of the stacked weights is one block, at index (0, 0). -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- The second weight row and the second bias are one block each, at index (0, 0). -/
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-- The transposed distance weights' block index at point `t` is (0, t). -/
theorem idx7 : ∀ t : Fin cfg0.N, win0_7.index t (0 : Fin 2) = 0 ∧ win0_7.index t (1 : Fin 2) = t.val :=
  (by decide +kernel : ∀ t : Fin grid0.N, _)

/-! ## The six windows over those arrays -/

/-- Entry `x` of the unlabelled embeddings' block at point `t` is the argument's entry `k`, `x` moved `t` tiles down. -/
theorem iblk1_apply (x : S128x256.Idx) (k : S1024x256.Idx)
    (hk0 : (k 0).val = t.val * 128 + (x 0).val) (hk1 : (k 1).val = (x 1).val) :
    (iblk m c 1 t : Vec Ideal S128x256 .bf16) x = m ((c : Thread nD τ).loc main_arg0) k := by
  obtain ⟨e0, e1⟩ := idx1 t
  unfold iblk
  rw [View.read_apply]
  show (V m c main_v4 : S1024x256.Idx → EReal) _ = m (c.tc.loc main_arg0) _
  rw [V_v4]
  refine congrArg (m (c.tc.loc main_arg0)) (funext fun a => Fin.ext ?_)
  match a with
  | ⟨0, _⟩ => show win0_1.index t (0 : Fin 2) * 128 + 1 * (x 0).val = (k 0).val; rw [e0, hk0]; omega
  | ⟨1, _⟩ => show win0_1.index t (1 : Fin 2) * 256 + 1 * (x 1).val = (k 1).val; rw [e1, hk1]; omega

/-- The unlabelled embeddings' block at point `t`: column `j`, feature `u` is the argument at (t * 128 + j, u). -/
theorem blk1_at (j : Fin 128) (u : Fin 256) :
    (iblk m c 1 t : Vec Ideal S128x256 .bf16) (ix2 j u) = m ((c : Thread nD τ).loc main_arg0) (ix2 (row t j) u) :=
  iblk1_apply m c t (ix2 j u) (ix2 (row t j) u) rfl rfl

/-- Entry `x` of the upper-half block is the stacked weights' entry `k`, the same row and column. -/
theorem iblk2_apply (x : S256x1024.Idx) (k : S512x1024.Idx)
    (hk0 : (k 0).val = (x 0).val) (hk1 : (k 1).val = (x 1).val) :
    (iblk m c 2 t : Vec Ideal S256x1024 .bf16) x = m ((c : Thread nD τ).loc main_arg3) k := by
  obtain ⟨e0, e1⟩ := idx2 t
  unfold iblk
  rw [View.read_apply]
  show (V m c main_v1 : S256x1024.Idx → EReal) _ = m (c.tc.loc main_arg3) _
  rw [V_v1]
  refine extractStridedSlice_apply _ _ _ _ k fun a => ?_
  match a with
  | ⟨0, _⟩ => show (k 0).val = 0 + (win0_2.index t (0 : Fin 2) * 256 + 1 * (x 0).val); rw [e0, hk0]; omega
  | ⟨1, _⟩ => show (k 1).val = 0 + (win0_2.index t (1 : Fin 2) * 1024 + 1 * (x 1).val); rw [e1, hk1]; omega

/-- The upper-half block: row `e`, column `h` is the stacked weights at (e, h). -/
theorem blk2_at (e : Fin 256) (h : Fin 1024) :
    (iblk m c 2 t : Vec Ideal S256x1024 .bf16) (ix2 e h) = m ((c : Thread nD τ).loc main_arg3) (ix2 (Cert.Spec.up e) h) :=
  iblk2_apply m c t (ix2 e h) (ix2 (Cert.Spec.up e) h) rfl rfl

/-- Entry `x` of the lower-half block is the stacked weights' entry `k`, 256 rows further down. -/
theorem iblk3_apply (x : S256x1024.Idx) (k : S512x1024.Idx)
    (hk0 : (k 0).val = 256 + (x 0).val) (hk1 : (k 1).val = (x 1).val) :
    (iblk m c 3 t : Vec Ideal S256x1024 .bf16) x = m ((c : Thread nD τ).loc main_arg3) k := by
  obtain ⟨e0, e1⟩ := idx3 t
  unfold iblk
  rw [View.read_apply]
  show (V m c main_v3 : S256x1024.Idx → EReal) _ = m (c.tc.loc main_arg3) _
  rw [V_v3]
  refine extractStridedSlice_apply _ _ _ _ k fun a => ?_
  match a with
  | ⟨0, _⟩ => show (k 0).val = 256 + (win0_3.index t (0 : Fin 2) * 256 + 1 * (x 0).val); rw [e0, hk0]; omega
  | ⟨1, _⟩ => show (k 1).val = 0 + (win0_3.index t (1 : Fin 2) * 1024 + 1 * (x 1).val); rw [e1, hk1]; omega

/-- The lower-half block: row `u`, column `h` is the stacked weights at (256 + u, h). -/
theorem blk3_at (u : Fin 256) (h : Fin 1024) :
    (iblk m c 3 t : Vec Ideal S256x1024 .bf16) (ix2 u h) = m ((c : Thread nD τ).loc main_arg3) (ix2 (Cert.Spec.lo u) h) :=
  iblk3_apply m c t (ix2 u h) (ix2 (Cert.Spec.lo u) h) rfl rfl

/-- Entry `x` of the second weight row's block is the column's entry `k`, at the same place in row-major order. -/
theorem iblk5_apply (x : S1x1024.Idx) (k : S1024x1.Idx)
    (hk0 : (k 0).val = (x 1).val) (hk1 : (k 1).val = 0) :
    (iblk m c 5 t : Vec Ideal S1x1024 .f32) x = m ((c : Thread nD τ).loc main_arg5) k := by
  obtain ⟨e0, e1⟩ := idx5 t
  unfold iblk
  rw [View.read_apply]
  show (V m c main_v5 : S1x1024.Idx → EReal) _ = m (c.tc.loc main_arg5) _
  rw [V_v5]
  refine shapeCast_apply _ _ _ k ?_
  rewrite [Shape.rowMajor_val_two, Shape.rowMajor_val_two]
  have hx : (x 0).val < 1 := (x 0).isLt
  show (k 0).val * 1 + (k 1).val = (win0_5.index t (0 : Fin 2) * 1 + 1 * (x 0).val) * 1024 + (win0_5.index t (1 : Fin 2) * 1024 + 1 * (x 1).val)
  rw [e0, e1, hk0, hk1]; omega

/-- The second weight row's block: entry (0, h) is the column at (h, 0). -/
theorem blk5_at (h : Fin 1024) :
    (iblk m c 5 t : Vec Ideal S1x1024 .f32) (ix2 (0 : Fin 1) h) = m ((c : Thread nD τ).loc main_arg5) (ix2 h (0 : Fin 1)) :=
  iblk5_apply m c t (ix2 (0 : Fin 1) h) (ix2 h (0 : Fin 1)) rfl rfl

/-- Entry `x` of the second bias's block is the argument's one entry. -/
theorem iblk6_apply (x : S1x1.Idx) (k : S1.Idx) (hk0 : (k 0).val = 0) :
    (iblk m c 6 t : Vec Ideal S1x1 .f32) x = m ((c : Thread nD τ).loc main_arg6) k := by
  obtain ⟨e0, e1⟩ := idx6 t
  unfold iblk
  rw [View.read_apply]
  show (V m c main_v6 : S1x1.Idx → EReal) _ = m (c.tc.loc main_arg6) _
  rw [V_v6]
  refine shapeCast_apply _ _ _ k ?_
  rewrite [Shape.rowMajor_val_one, Shape.rowMajor_val_two]
  have hx0 : (x 0).val < 1 := (x 0).isLt
  have hx1 : (x 1).val < 1 := (x 1).isLt
  show (k 0).val = (win0_6.index t (0 : Fin 2) * 1 + 1 * (x 0).val) * 1 + (win0_6.index t (1 : Fin 2) * 1 + 1 * (x 1).val)
  rw [e0, e1, hk0]; omega

/-- The second bias's block: its one entry is the argument's. -/
theorem blk6_at :
    (iblk m c 6 t : Vec Ideal S1x1 .f32) (ix2 (0 : Fin 1) (0 : Fin 1)) = m ((c : Thread nD τ).loc main_arg6) (ix1 (0 : Fin 1)) :=
  iblk6_apply m c t (ix2 (0 : Fin 1) (0 : Fin 1)) (ix1 (0 : Fin 1)) rfl

/-- Entry `x` of the distance weights' block at point `t` is the argument's entry `k`: transposed, and `t` tiles along. -/
theorem iblk7_apply (x : S64x128.Idx) (k : S1024x64.Idx)
    (hk0 : (k 0).val = t.val * 128 + (x 1).val) (hk1 : (k 1).val = (x 0).val) :
    (iblk m c 7 t : Vec Ideal S64x128 .f32) x = m ((c : Thread nD τ).loc main_arg2) k := by
  obtain ⟨e0, e1⟩ := idx7 t
  unfold iblk
  rw [View.read_apply]
  show (V m c main_v7 : S64x1024.Idx → EReal) _ = m (c.tc.loc main_arg2) _
  rw [V_v7]
  refine transpose_apply _ _ _ _ k fun b => ?_
  match b with
  | ⟨0, _⟩ => show (k 1).val = win0_7.index t (0 : Fin 2) * 64 + 1 * (x 0).val; rw [e0, hk1]; omega
  | ⟨1, _⟩ => show (k 0).val = win0_7.index t (1 : Fin 2) * 128 + 1 * (x 1).val; rw [e1, hk0]; omega

/-- The distance weights' block at point `t`: station `n`, column `j` is the argument at (t * 128 + j, n). -/
theorem blk7_at (n : Fin 64) (j : Fin 128) :
    (iblk m c 7 t : Vec Ideal S64x128 .f32) (ix2 n j) = m ((c : Thread nD τ).loc main_arg2) (ix2 (row t j) n) :=
  iblk7_apply m c t (ix2 n j) (ix2 (row t j) n) rfl rfl

end Cert.KernelValue

end
-- ==== Proof.KernelValue.lean ====
/-
  The kernel's result, entry by entry.

  Grid point t handles samples 128t .. 128t+127.  Its body fills the scratch table with the scaled scores of all 64
  stations for those samples (the loop), then stores the soft-max over the stations, column by column, in the output
  block; the block is columns 128t .. 128t+127 of a [64,1024] array, whose transpose is the result.  So the
  result at sample b and station n is the soft-max over the stations of the scaled scores at b, read at n — the
  specification's `out`, once the blocks are read as entries of the argument arrays and the three summands of the
  hidden layer are re-bracketed (addition of extended reals is associative).
-/
import proofs.«174531_j44968307589649_2_alg».proof.Proof.KernelIdealFrame
import proofs.«174531_j44968307589649_2_alg».proof.Proof.ScratchTable
import proofs.«174531_j44968307589649_2_alg».proof.Proof.SoftmaxBlock
import proofs.«174531_j44968307589649_2_alg».proof.Proof.Blocks
import proofs.«174531_j44968307589649_2_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelValue

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP

variable (m : (ℓ : Loc nD τ sig) → Buf (Elt Ideal) ℓ) (ρ : Dev nD → PrngReg)

/-- The specification's result at sample `b`, station `n`, of core `c`'s argument arrays. -/
abbrev specOut (c : Dev nD) (b : Fin 1024) (n : Fin 64) : EReal :=
  Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b n

/-- The specification's scaled score of station `n` for sample `b`, of core `c`'s argument arrays. -/
abbrev specScore (c : Dev nD) (n : Fin 64) (b : Fin 1024) : EReal :=
  Cert.Spec.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n b

/-- The table score computed from point `t`'s blocks is the specification's score at sample `128t + j`. -/
theorem tableScore_blocks (c : Dev nD) (t : Fin cfg0.N) (n : Fin 64) (j : Fin 128) :
    tableScore (iblk m c 1 t) (iblk m c 3 t) (iblk m c 4 t) (iblk m c 0 t) (iblk m c 2 t) (iblk m c 5 t) (iblk m c 6 t)
      (iblk m c 7 t) n j = specScore m c n (row t j) := by
  unfold tableScore samplePart specScore Cert.Spec.score
  rw [blk6_at m c t, blk7_at m c t n j]
  refine congrArg (fun s => (s + m ((c : Thread nD τ).loc main_arg6) (ix1 (0 : Fin 1))) * m ((c : Thread nD τ).loc main_arg2) (ix2 (row t j) n))
    (Finset.sum_congr rfl fun h _ => ?_)
  rw [blk5_at m c t h, ← Cert.Spec.hidden_assoc]
  unfold Cert.Spec.labPart Cert.Spec.unlPart
  refine congrArg (fun s => max s 0 * m ((c : Thread nD τ).loc main_arg5) (ix2 h (0 : Fin 1))) ?_
  refine congrArg₂ (· + ·) (Finset.sum_congr rfl fun e _ => ?_) (congrArg₂ (· + ·) (Finset.sum_congr rfl fun u _ => ?_) (blk4_at m c t h))
  · rw [blk0_at m c t n j e, blk2_at m c t e h]
  · rw [blk1_at m c t j u, blk3_at m c t u h]

section Body

variable (c : Dev nD) (i : grid0.Coords) (arg1 : Memref sig .tc .vmem S64x128x256 .f32) (harg1 : arg1.IsWhole) (arg2 : Memref sig .tc .vmem S128x256 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x128 .f32) (harg10 : arg10.IsWhole)
  (x0 : Vec Ideal S64x128x256 .f32) (x1 : Vec Ideal S128x256 .bf16) (x2 : Vec Ideal S256x1024 .bf16) (x3 : Vec Ideal S256x1024 .bf16) (x4 : Vec Ideal S1024 .f32) (x5 : Vec Ideal S1x1024 .f32) (x6 : Vec Ideal S1x1 .f32) (x7 : Vec Ideal S64x128 .f32)

/-- What the body leaves in the output block: the soft-max of the scratch table the loop filled. -/
theorem out0_eq :
    out0_A_8 (F := Ideal) c i arg1 harg1 arg2 harg2 arg3 harg3 arg4 harg4 arg5 harg5 arg6 harg6 arg7 harg7 arg8 harg8 arg9 harg9 arg10 harg10 x0 x1 x2 x3 x4 x5 x6 x7
      = k0_pay2 (View.canon (loopPieces c i arg1 harg1 arg2 harg2 arg3 harg3 arg4 harg4 arg5 harg5 arg6 harg6 arg7 harg7 arg8 harg8 arg9 harg9 arg10 harg10 x0 x1 x2 x3 x4 x5 x6 x7)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  exact View.canon_unit_zero zero2 _ _

/-- The output block at station `n`, column `j`: the soft-max over the stations of the table scores of column `j`. -/
theorem out0_at (n : Fin 64) (j : Fin 128) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 (ix2 n j)
      = Ideal.div (Ideal.exp (tableScore x1 x3 x4 x0 x2 x5 x6 x7 n j
            - (Finset.univ : Finset (Fin 64)).fold max ⊥ (fun n' => tableScore x1 x3 x4 x0 x2 x5 x6 x7 n' j)))
          (∑ n'' : Fin 64, Ideal.exp (tableScore x1 x3 x4 x0 x2 x5 x6 x7 n'' j
            - (Finset.univ : Finset (Fin 64)).fold max ⊥ (fun n' => tableScore x1 x3 x4 x0 x2 x5 x6 x7 n' j))) := by
  rw [out0_eq, softmaxBlock_at]
  unfold colTop
  simp only [scratch_at]

end Body

/-- The output block of point `t` at station `n`, column `j` is the specification's result at sample `128t + j`. -/
theorem outBlock_at (c : Dev nD) (t : Fin cfg0.N) (n : Fin 64) (j : Fin 128) :
    (outsAt0 m c t : Vec Ideal S64x128 .f32) (ix2 n j) = specOut m c (row t j) n := by
  unfold outsAt0
  refine (out0_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) n j).trans ?_
  simp only [tableScore_blocks m c t]
  rfl

/-- The [64,1024] array the region writes: stations down, samples across. -/
def stationsBySamples (c : Dev nD) : S64x1024.Idx → EReal := fun i => specOut m c (i 1) (i 0)

/-- The output window's block index at point `t` is `(0, t)`. -/
theorem outIndex : ∀ t : Fin cfg0.N, win0_8.index t (0 : Fin 2) = 0 ∧ win0_8.index t (1 : Fin 2) = t.val :=
  (by decide +kernel : ∀ t : Fin grid0.N, _)

/-- What point `t` writes back is block `t` of that array. -/
theorem flushed_eq (c : Dev nD) (t : Fin cfg0.N) :
    (dats m 0 c).flushed 8 t = ((cfg0.win 8).blk t).view.read (Elt Ideal) (stationsBySamples m c) := by
  show (cfg0.win 8).cut (grid0.coords t) ((dats m 0 c).after 8 t) = _
  rw [after0_8]
  funext y
  obtain ⟨n, j, rfl⟩ : ∃ (n : Fin 64) (j : Fin 128), y = ix2 n j := ⟨y 0, y 1, eq_ix2 y⟩
  show (outsAt0 m c t : Vec Ideal S64x128 .f32) (ix2 n j) = stationsBySamples m c (((cfg0.win 8).blk t).view.emb (ix2 n j))
  rw [outBlock_at]
  obtain ⟨e0, e1⟩ := outIndex t
  have he : ((cfg0.win 8).blk t).view.emb (ix2 n j) = ix2 n (row t j) := by
    funext a; apply Fin.ext
    match a with
    | ⟨0, _⟩ => show win0_8.index t (0 : Fin 2) * 64 + 1 * n.val = n.val; rw [e0]; omega
    | ⟨1, _⟩ => show win0_8.index t (1 : Fin 2) * 128 + 1 * j.val = t.val * 128 + j.val; rw [e1]; omega
  rw [he]
  rfl

/-- An index of the array is in point `t`'s block iff each coordinate is in the block's range on its axis. -/
theorem mem_blk (t : Fin cfg0.N) (i : S64x1024.Idx) :
    i ∈ ((cfg0.win 8).blk t).view.set ↔ ∀ a : Fin 2, win0_8.index t a * S64x128.size a ≤ (i a).val ∧ (i a).val < win0_8.index t a * S64x128.size a + S64x128.size a := by
  show i ∈ ((View.whole main_v8).slice (win0_8.rect t)).set ↔ _
  rw [View.set_slice_whole, Rect.mem_set_unit]
  exact Iff.rfl

/-- Every entry of the array lies in the block of the point that handles its sample. -/
theorem covered (i : S64x1024.Idx) : ∃ t : Fin cfg0.N, (cfg0.win 8).flush t = true ∧ i ∈ ((cfg0.win 8).blk t).view.set := by
  have hN : grid0.N = 8 := N_0
  have hi0 : (i 0).val < 64 := (i 0).isLt
  have hi1 : (i 1).val < 1024 := (i 1).isLt
  have ht : (i 1).val / 128 < grid0.N := by rw [hN]; omega
  refine ⟨⟨(i 1).val / 128, ht⟩, flush0_8 _, ?_⟩
  rw [mem_blk]
  obtain ⟨e0, e1⟩ := outIndex ⟨(i 1).val / 128, ht⟩
  intro a
  match a with
  | ⟨0, _⟩ =>
    show win0_8.index ⟨(i 1).val / 128, ht⟩ (0 : Fin 2) * 64 ≤ (i 0).val ∧ (i 0).val < win0_8.index ⟨(i 1).val / 128, ht⟩ (0 : Fin 2) * 64 + 64
    rw [e0]; omega
  | ⟨1, _⟩ =>
    show win0_8.index ⟨(i 1).val / 128, ht⟩ (1 : Fin 2) * 128 ≤ (i 1).val ∧ (i 1).val < win0_8.index ⟨(i 1).val / 128, ht⟩ (1 : Fin 2) * 128 + 128
    rw [e1]; show (i 1).val / 128 * 128 ≤ (i 1).val ∧ (i 1).val < (i 1).val / 128 * 128 + 128; omega

/-- So after the region the array holds the specification's result, stations down, samples across. -/
theorem regionArray (c : Dev nD) : (dats m 0 c).arrAt 8 cfg0.N = stationsBySamples m c :=
  (dats m 0 c).arrAt_eq_of_cover 8 (stationsBySamples m c) (fun t _ => flushed_eq m c t) (covered)

/-- The host's transpose after the region turns the array into the result: samples down, stations across. -/
theorem tail_eq (c : Dev nD) :
    Pipeline.afterTail₀ cfgs (dats m) 0 (V0 m) [hostOps1] c main_v9 = (fun i : S1024x64.Idx => specOut m c (i 0) (i 1)) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.tc.devRef main_v8)
      = stationsBySamples m c :=
    (Pipeline.withArrays_arr spec0 launch0.win.arr_inj c _ _ 8).trans (regionArray m c)
  rw [hw]
  funext i
  obtain ⟨b, n, rfl⟩ : ∃ (b : Fin 1024) (n : Fin 64), i = ix2 b n := ⟨i 0, i 1, eq_ix2 i⟩
  exact transpose_ix2_apply (stationsBySamples m c) transposes_S64x1024_S1024x64_1_0 b n

/-- The kernel's run, read: every weakly fair execution ends with the result holding the specification's `out`,
    entry by entry, and the argument arrays as they were. -/
theorem run : θ_run defs (onTc (τ := τ) (main (F := Ideal))) ⟨m, fun _ => 0, ρ⟩ fun r => ∀ c : Dev nD,
      r.2.mem ((c.tc : Thread nD τ).loc main_v9) = (fun i : S1024x64.Idx => specOut m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v9 (Pipeline.mem_restRefs_of main_v9 (by decide) (by decide))).trans (tail_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelValue

end
-- ==== Proof.RefValue.lean ====
/-
  The reference program, read entry by entry, is the specification.

  Stage by stage: the two contractions of the embeddings against the halves of the stacked weight matrix and
  the bias give `hidden`; the rectifier is a maximum with the zero word, which is the real 0; the contraction
  against the second weight column, the second bias and the distance weight give `score`; the soft-max over the
  stations is a fold of `max` from the bottom element (the word of minus infinity), a further maximum with that
  same bottom element (which changes nothing), a difference, an exponential, a sum from the real 0 and a quotient.
-/
import proofs.«174531_j44968307589649_2_alg».proof.Proof.Gen.ReferenceIdeal.Read
import proofs.«174531_j44968307589649_2_alg».proof.Proof.Spec
import Idealize.ShloMosaic.PureOps.Reduce
import Idealize.ShloMosaic.PureOps.Ideal.Laws
import Idealize.ShloMosaic.Lib.ValueIdx

noncomputable section

namespace Cert.RefValue

open Cert.ReferenceIdeal Cert.ReferenceIdeal.Gen Cert.ReferenceIdeal.Read Idealize.ShloMosaic Idealize.ShloMosaic.ValueIdx
  Idealize.SL.Sem Idealize.ShloMosaic.StableHlo

variable (x0 : (⟨S1024x256, .f32⟩ : BufTy).Contents (Elt Ideal)) (x1 : (⟨S64x1024x256, .f32⟩ : BufTy).Contents (Elt Ideal))
  (x2 : (⟨S1024x64, .f32⟩ : BufTy).Contents (Elt Ideal)) (x3 : (⟨S512x1024, .f32⟩ : BufTy).Contents (Elt Ideal))
  (x4 : (⟨S1024, .f32⟩ : BufTy).Contents (Elt Ideal)) (x5 : (⟨S1024x1, .f32⟩ : BufTy).Contents (Elt Ideal))
  (x6 : (⟨S1, .f32⟩ : BufTy).Contents (Elt Ideal))

/-! ## The hidden layer -/

/-- The station contraction reads the embedding at (n, b, k). -/
theorem lab_l (n : Fin 64) (b : Fin 1024) (h : Fin 1024) (k : Fin 256) :
    lidx_main_v3 (ix3 n b h) k = ix3 n b k :=
  funext fun a => Fin.ext (by match a with | ⟨0, _⟩ => rfl | ⟨1, _⟩ => rfl | ⟨2, _⟩ => rfl)

/-- The station contraction reads the upper half of the stacked weights at (k, h). -/
theorem lab_r (n : Fin 64) (b : Fin 1024) (h : Fin 1024) (k : Fin 256) :
    idx_main_v0 (ridx_main_v3 (ix3 n b h) k) = ix2 (Spec.up k) h :=
  funext fun a => Fin.ext (by match a with | ⟨0, _⟩ => rfl | ⟨1, _⟩ => rfl)

/-- The sample contraction reads the unlabelled embedding at (b, k). -/
theorem unl_l (n : Fin 64) (b : Fin 1024) (h : Fin 1024) (k : Fin 256) :
    lidx_main_v2 (idx_main_v4 (idx_main_v5 (ix3 n b h))) k = ix2 b k :=
  funext fun a => Fin.ext (by match a with | ⟨0, _⟩ => rfl | ⟨1, _⟩ => rfl)

/-- The sample contraction reads the lower half of the stacked weights at (256 + k, h). -/
theorem unl_r (n : Fin 64) (b : Fin 1024) (h : Fin 1024) (k : Fin 256) :
    idx_main_v1 (ridx_main_v2 (idx_main_v4 (idx_main_v5 (ix3 n b h))) k) = ix2 (Spec.lo k) h :=
  funext fun a => Fin.ext (by match a with | ⟨0, _⟩ => rfl | ⟨1, _⟩ => rfl)

/-- The first bias, broadcast over stations and samples, is read at h. -/
theorem bias1_i (n : Fin 64) (b : Fin 1024) (h : Fin 1024) :
    idx_main_v7 (idx_main_v8 (ix3 n b h)) = ix1 h :=
  funext fun a => Fin.ext (by match a with | ⟨0, _⟩ => rfl)

/-- The sum of the two contractions and the bias, at (n, b, h), is `hidden`. -/
theorem hidden_at (n : Fin 64) (b : Fin 1024) (h : Fin 1024) :
    val_main_v9 (F := Ideal) x0 x1 x3 x4 (ix3 n b h) = Spec.hidden x0 x1 x3 x4 n b h := by
  rw [val_main_v9_apply, val_main_v6_apply, val_main_v3_apply, val_main_v5_apply, val_main_v4_apply,
    val_main_v2_apply, val_main_v8_apply, val_main_v7_apply]
  simp only [val_main_v0_apply, val_main_v1_apply, Ideal.addf_def, lab_l, lab_r, unl_l, unl_r, bias1_i]
  rfl

/-! ## The rectifier and the score -/

/-- The rectified hidden layer at (n, b, h): the maximum with the zero word, which is the real 0. -/
theorem relu_at (n : Fin 64) (b : Fin 1024) (h : Fin 1024) :
    val_main_v10 (F := Ideal) x0 x1 x3 x4 (ix3 n b h) = max (Spec.hidden x0 x1 x3 x4 n b h) 0 := by
  rw [val_main_v10_apply, val_main_call0_v0_apply, val_main_call0_cst_apply, hidden_at]
  simp only [Ideal.maximumf_def, Ideal.ofBits_def, Ideal.ofBits_zero_f32]

/-- Transposing and dropping the unit axis: entry (b, n) of the score table is entry (n, b, 0) of the column. -/
theorem col_i (b : Fin 1024) (n : Fin 64) :
    idx_main_v15 (idx_main_v16 (ix2 b n)) = ix3 n b (0 : Fin 1) :=
  funext fun a => Fin.ext (by
    match a with
    | ⟨0, _⟩ => show (n.val * 1024 + b.val) / 1024 = n.val; have := b.isLt; omega
    | ⟨1, _⟩ => show (n.val * 1024 + b.val) / 1 % 1024 = b.val; have := b.isLt; omega
    | ⟨2, _⟩ => rfl)

/-- The last contraction reads the rectified hidden layer at (n, b, k). -/
theorem out_l (n : Fin 64) (b : Fin 1024) (k : Fin 1024) :
    lidx_main_v11 (ix3 n b (0 : Fin 1)) k = ix3 n b k :=
  funext fun a => Fin.ext (by match a with | ⟨0, _⟩ => rfl | ⟨1, _⟩ => rfl | ⟨2, _⟩ => rfl)

/-- The last contraction reads the second weight column at (k, 0). -/
theorem out_r (n : Fin 64) (b : Fin 1024) (k : Fin 1024) :
    ridx_main_v11 (ix3 n b (0 : Fin 1)) k = ix2 k (0 : Fin 1) :=
  funext fun a => Fin.ext (by match a with | ⟨0, _⟩ => rfl | ⟨1, _⟩ => rfl)

/-- The second bias, broadcast over stations and samples, is read at its one entry. -/
theorem bias2_i (n : Fin 64) (b : Fin 1024) :
    idx_main_v12 (idx_main_v13 (ix3 n b (0 : Fin 1))) = ix1 (0 : Fin 1) :=
  funext fun a => Fin.ext (by match a with | ⟨0, _⟩ => rfl)

/-- The score table at (b, n) is `score n b`. -/
theorem score_at (b : Fin 1024) (n : Fin 64) :
    val_main_v17 (F := Ideal) x0 x1 x2 x3 x4 x5 x6 (ix2 b n) = Spec.score x0 x1 x2 x3 x4 x5 x6 n b := by
  rw [val_main_v17_apply, val_main_v16_apply, val_main_v15_apply, col_i, val_main_v14_apply, val_main_v11_apply,
    val_main_v13_apply, val_main_v12_apply, bias2_i]
  simp only [out_l, out_r, relu_at, Ideal.addf_def, Ideal.mulf_def]
  rfl

/-! ## The largest score of a sample -/

/-- The word of minus infinity is the bottom element. -/
theorem bot_word : Ideal.ofBits .f32 0xFF800000#32 = (⊥ : EReal) := by simp [Ideal.ofBits, Ideal.ieee]

/-- Sample `b` with station `k` put back on the reduced axis is (b, k). -/
theorem lift_i (hR : S1024x64.Reduces [1] S1024) (b : Fin 1024) (k : Fin (S1024x64.size 1)) :
    hR.lift (ix1 b) k = ix2 b (⟨k.val, k.isLt⟩ : Fin 64) := by
  funext c; apply Fin.ext
  fin_cases c <;> rfl

/-- The reduction with a maximum body from minus infinity, at sample `b`, is the fold of `max` from the bottom
    element over the stations' scores. -/
theorem top_at (b : Fin 1024) :
    val_main_v18 (F := Ideal) x0 x1 x2 x3 x4 x5 x6 (ix1 b) = Spec.top (Spec.score x0 x1 x2 x3 x4 x5 x6) b := by
  have hR : S1024x64.Reduces [1] S1024 := by decide
  unfold val_main_v18
  rw [Host.reduce_eq_fold_single FloatOps.maximumf _ _ reducesTo_S1024x64_S1024_d1 hR h_S_, val_main_cst_apply]
  have hf : (val_main_v17 (F := Ideal) x0 x1 x2 x3 x4 x5 x6 ∘ hR.lift (ix1 b))
      = fun n : Fin 64 => Spec.score x0 x1 x2 x3 x4 x5 x6 n b :=
    funext fun k => by
      show val_main_v17 (F := Ideal) x0 x1 x2 x3 x4 x5 x6 (hR.lift (ix1 b) k) = _
      rw [lift_i, score_at]
      rfl
  rw [hf]
  simp only [Ideal.ofBits_def, bot_word]
  rfl

/-! ## The soft-max over the stations -/

/-- A sample's maximum, broadcast along the stations, is read at `b`. -/
theorem mx_i (b : Fin 1024) (n : Fin 64) :
    idx_main_v21 (idx_main_v22 (ix2 b n)) = ix1 b :=
  funext fun a => Fin.ext (by match a with | ⟨0, _⟩ => rfl)

/-- A sample's sum of exponentials, broadcast along the stations, is read at `b`. -/
theorem den_i (b : Fin 1024) (n : Fin 64) :
    idx_main_v26 (idx_main_v27 (ix2 b n)) = ix1 b :=
  funext fun a => Fin.ext (by match a with | ⟨0, _⟩ => rfl)

/-- The sum over the stations reads the exponentials at (b, k). -/
theorem sum_i (b : Fin 1024) (k : Fin 64) :
    idx_main_v25 (ix1 b) k = ix2 b k :=
  funext fun a => Fin.ext (by match a with | ⟨0, _⟩ => rfl | ⟨1, _⟩ => rfl)

/-- The further maximum with minus infinity changes nothing: `max ⊥ x = x`. -/
theorem mx_at (b : Fin 1024) :
    val_main_v20 (F := Ideal) x0 x1 x2 x3 x4 x5 x6 (ix1 b) = Spec.top (Spec.score x0 x1 x2 x3 x4 x5 x6) b := by
  rw [val_main_v20_apply, val_main_v19_apply, val_main_cst_0_apply, top_at]
  simp only [Ideal.maximumf_def, Ideal.ofBits_def, bot_word, max_bot_left]

/-- The exponential of a score less its sample's largest, at (b, n). -/
theorem exp_at (b : Fin 1024) (n : Fin 64) :
    val_main_v24 (F := Ideal) x0 x1 x2 x3 x4 x5 x6 (ix2 b n)
      = Ideal.exp (Spec.score x0 x1 x2 x3 x4 x5 x6 n b - Spec.top (Spec.score x0 x1 x2 x3 x4 x5 x6) b) := by
  rw [val_main_v24_apply, val_main_v23_apply, score_at, val_main_v22_apply, val_main_v21_apply, mx_i, mx_at]
  simp only [Ideal.subf_def, Ideal.hostUnary_exp_def]

/-- The sum from the zero word over the stations, at sample `b`. -/
theorem den_at (b : Fin 1024) :
    val_main_v25 (F := Ideal) x0 x1 x2 x3 x4 x5 x6 (ix1 b)
      = ∑ n' : Fin 64, Ideal.exp (Spec.score x0 x1 x2 x3 x4 x5 x6 n' b - Spec.top (Spec.score x0 x1 x2 x3 x4 x5 x6) b) := by
  rw [val_main_v25_apply, val_main_cst_1_apply]
  simp only [sum_i, exp_at, Ideal.ofBits_def, Ideal.ofBits_zero_f32, zero_add]

/-- The reference's result, entry (b, n), is the specification's. -/
theorem ref_out (b : Fin 1024) (n : Fin 64) :
    val_main_v28 (F := Ideal) x0 x1 x2 x3 x4 x5 x6 (ix2 b n) = Spec.out x0 x1 x2 x3 x4 x5 x6 b n := by
  rw [val_main_v28_apply, exp_at, val_main_v27_apply, val_main_v26_apply, den_i, den_at]
  simp only [Ideal.hostDivf_def]
  rfl

end Cert.RefValue

end
-- ==== Proof.lean ====
/-
  An attention-score network followed by a soft-max, as one tiled kernel against its plain reference.

  For 64 stations and 1024 samples, with station embeddings lab [64,1024,256], sample embeddings unl [1024,256],
  distance weights dis [1024,64], a stacked first weight W1 [512,1024] (rows 0..255 act on a station's embedding,
  rows 256..511 on the sample's), a bias b1 [1024], a second weight W2 [1024,1] and its bias b2 [1]:
      hidden(n,b,h) = Σ_e lab(n,b,e)·W1(e,h) + Σ_u unl(b,u)·W1(256+u,h) + b1(h)
      score(n,b)    = (Σ_h max(hidden(n,b,h), 0)·W2(h,0) + b2(0)) · dis(b,n)
      out(b,n)      = exp(score(n,b) − M(b)) / Σ_n' exp(score(n',b) − M(b)),   M(b) = max_n' score(n',b).
  The kernel tiles the samples in 8 tiles of 128; within a tile it walks the stations 8 at a time, writing each
  chunk's scores into a [64,128] scratch table, then takes the soft-max down the table's columns and writes the
  tile's [64,128] block of a [64,1024] array, which the host transposes.  The reference computes the same formula
  with whole-array operations.  At the ideal instance the two differ only in how the three summands of `hidden` are
  bracketed (the kernel adds the sample's part and the bias first), and addition of extended reals is
  associative; no finiteness of the inputs is used.  The idealization rewrote nothing, so `preserves` is trivial.
-/
import proofs.«174531_j44968307589649_2_alg».proof.Defs
import proofs.«174531_j44968307589649_2_alg».proof.Proof.Gen.Kernel
import proofs.«174531_j44968307589649_2_alg».proof.Proof.Gen.KernelIdeal
import proofs.«174531_j44968307589649_2_alg».proof.Proof.Gen.ReferenceIdeal
import proofs.«174531_j44968307589649_2_alg».proof.Proof.Gen.Pre_finite_inputs
import proofs.«174531_j44968307589649_2_alg».proof.Proof.Gen.ReferenceIdeal.Run
import proofs.«174531_j44968307589649_2_alg».proof.Proof.Gen.ReferenceIdeal.Read
import proofs.«174531_j44968307589649_2_alg».proof.Proof.KernelFrame
import proofs.«174531_j44968307589649_2_alg».proof.Proof.KernelIdealFrame
import proofs.«174531_j44968307589649_2_alg».proof.Proof.KernelValue
import proofs.«174531_j44968307589649_2_alg».proof.Proof.RefValue
import Idealize.ShloMosaic.Adequacy
import Idealize.ShloMosaic.Init

noncomputable section

namespace Cert.Proof

open Idealize.ShloMosaic Idealize.ShloMosaic.ValueIdx Idealize.SL.Sem

/-- The kernel as printed runs, faults nowhere and leaves its arguments alone. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification's `out`, entry by entry. -/
theorem algebraic : Cert.algebraic_KernelIdeal_ReferenceIdeal := by
  intro m ρ m' ρ' _ hagree
  refine ⟨fun c => (fun i => Cert.KernelValue.specOut m c (i 0) (i 1)), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  obtain ⟨h0, h1, h2, h3, h4, h5, h6⟩ := hagree c
  rw [h0, h1, h2, h3, h4, h5, h6]
  funext i
  obtain ⟨b, n, rfl⟩ : ∃ (b : Fin 1024) (n : Fin 64), i = ix2 b n := ⟨i 0, i 1, eq_ix2 i⟩
  exact Cert.RefValue.ref_out _ _ _ _ _ _ _ b n

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
